-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64 : Shape := ⟨1, ![64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : FVec F S100000x64 .f32) (main_arg2 : FVec F S100000x64 .f32) (main_arg3 : FVec F S1600000 .f32) (main_arg4 : FVec F S64 .f32) (main_arg5 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_v13 main_v16
-- ==== Kernel.lean ====
abbrev S100000x64 : Shape := ⟨2, ![100000, 64]⟩
abbrev S1600000 : Shape := ⟨1, ![1600000]⟩
abbrev S64 : Shape := ⟨1, ![64]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1600000x2 : Shape := ⟨2, ![1600000, 2]⟩
abbrev S128 : Shape := ⟨1, ![128]⟩
abbrev S1x128 : Shape := ⟨2, ![1, 128]⟩
abbrev S1600000x128 : Shape := ⟨2, ![1600000, 128]⟩
abbrev S50000x128 : Shape := ⟨2, ![50000, 128]⟩
abbrev S4000x64 : Shape := ⟨2, ![4000, 64]⟩
abbrev S4000x2 : Shape := ⟨2, ![4000, 2]⟩
abbrev S4000x128 : Shape := ⟨2, ![4000, 128]⟩
abbrev S4000x1 : Shape := ⟨2, ![4000, 1]⟩
abbrev S1x64 : Shape := ⟨2, ![1, 64]⟩
abbrev S2000x128 : Shape := ⟨2, ![2000, 128]⟩

abbrev nBuf : Space → Nat
  | .hbm => 91
  | .vmem => 21
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S100000x64, .f32⟩
  | .hbm, ⟨3, _⟩ => ⟨S1600000, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000, .f32⟩
  | .hbm, ⟨66, _⟩ => ⟨S1600000, .f32⟩
  | .hbm, ⟨67, _⟩ => ⟨S1600000, .f32⟩
  | .hbm, ⟨68, _⟩ => ⟨S1600000x1, .f32⟩
  | .hbm, ⟨69, _⟩ => ⟨S1600000x1, .f32⟩
  | .hbm, ⟨70, _⟩ => ⟨S1600000x2, .f32⟩
  | .hbm, ⟨71, _⟩ => ⟨S128, .f32⟩
  | .hbm, ⟨72, _⟩ => ⟨S1x128, .f32⟩
  | .hbm, ⟨73, _⟩ => ⟨S1600000x128, .f32⟩
  | .hbm, ⟨74, _⟩ => ⟨S1600000x64, .f32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x2, .f32⟩
  | .local _ .vmem, ⟨5, _⟩ => ⟨S4000x2, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_cst : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_cst_2 : Ref sig .tc := ⟨.hbm, 20, rfl⟩
abbrev main_call0_v11 : Ref sig .tc := ⟨.hbm, 21, rfl⟩
abbrev main_call0_v12 : Ref sig .tc := ⟨.hbm, 22, rfl⟩
abbrev main_call0_cst_3 : Ref sig .tc := ⟨.hbm, 23, rfl⟩
abbrev main_call0_v13 : Ref sig .tc := ⟨.hbm, 24, rfl⟩
abbrev main_call0_v14 : Ref sig .tc := ⟨.hbm, 25, rfl⟩
abbrev main_call0_cst_4 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_v15 : Ref sig .tc := ⟨.hbm, 29, rfl⟩
abbrev main_call0_c : Ref sig .tc := ⟨.hbm, 30, rfl⟩
abbrev main_call0_v16 : Ref sig .tc := ⟨.hbm, 31, rfl⟩
abbrev main_call0_v17 : Ref sig .tc := ⟨.hbm, 32, rfl⟩
abbrev main_call0_c_5 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_c_6 : Ref sig .tc := ⟨.hbm, 39, rfl⟩
abbrev main_call0_v23 : Ref sig .tc := ⟨.hbm, 40, rfl⟩
abbrev main_call0_v24 : Ref sig .tc := ⟨.hbm, 41, rfl⟩
abbrev main_call0_c_7 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_c_8 : Ref sig .tc := ⟨.hbm, 48, rfl⟩
abbrev main_call0_v30 : Ref sig .tc := ⟨.hbm, 49, rfl⟩
abbrev main_call0_v31 : Ref sig .tc := ⟨.hbm, 50, rfl⟩
abbrev main_call0_c_9 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_c_10 : Ref sig .tc := ⟨.hbm, 57, rfl⟩
abbrev main_call0_v37 : Ref sig .tc := ⟨.hbm, 58, rfl⟩
abbrev main_call0_v38 : Ref sig .tc := ⟨.hbm, 59, rfl⟩
abbrev main_call0_c_11 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_v48 : Ref sig .tc := ⟨.hbm, 70, rfl⟩
abbrev main_call0_v49 : Ref sig .tc := ⟨.hbm, 71, rfl⟩
abbrev main_call0_v50 : Ref sig .tc := ⟨.hbm, 72, rfl⟩
abbrev main_call0_v51 : Ref sig .tc := ⟨.hbm, 73, rfl⟩
abbrev main_call0_v52 : Ref sig .tc := ⟨.hbm, 74, rfl⟩
abbrev main_call0_v53 : Ref sig .tc := ⟨.hbm, 75, rfl⟩
abbrev main_call0_cst_12 : Ref sig .tc := ⟨.hbm, 76, rfl⟩
abbrev main_call0_v54 : Ref sig .tc := ⟨.hbm, 77, rfl⟩
abbrev main_call0_v55 : Ref sig .tc := ⟨.hbm, 78, rfl⟩
abbrev main_call0_v56 : Ref sig .tc := ⟨.hbm, 79, rfl⟩
abbrev main_call0_cst_13 : Ref sig .tc := ⟨.hbm, 80, rfl⟩
abbrev main_call0_v57 : Ref sig .tc := ⟨.hbm, 81, rfl⟩
abbrev main_call0_v58 : Ref sig .tc := ⟨.hbm, 82, rfl⟩
abbrev main_call0_v59 : Ref sig .tc := ⟨.hbm, 83, rfl⟩
abbrev main_call0_v60 : Ref sig .tc := ⟨.hbm, 84, rfl⟩
abbrev main_call0_v61 : Ref sig .tc := ⟨.hbm, 85, rfl⟩
abbrev main_call0_v62 : Ref sig .tc := ⟨.hbm, 86, rfl⟩
abbrev main_call0_v63 : Ref sig .tc := ⟨.hbm, 87, rfl⟩
abbrev main_call0_v64 : Ref sig .tc := ⟨.hbm, 88, rfl⟩
abbrev main_call0_v65 : Ref sig .tc := ⟨.hbm, 89, rfl⟩
abbrev main_v0 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  concatenates_S1600000x1_S1600000x1_S1600000x2_d1 : Shape.Concatenates [S1600000x1, S1600000x1] S1600000x2 1
  concatenates_S64_S64_S128_d0 : Shape.Concatenates [S64, S64] S128 0
  shapeCasts_S128_S1x128 : S128.ShapeCasts S1x128
  slices_S1600000x128_S1600000x64_0_0 : S1600000x128.Slices ![0, 0] S1600000x64
  slices_S1600000x128_S1600000x64_0_64 : S1600000x128.Slices ![0, 64] S1600000x64
  shapeCasts_S100000x64_S50000x128 : S100000x64.ShapeCasts S50000x128
  shapeCasts_S50000x128_S100000x64 : S50000x128.ShapeCasts S100000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  inb_S1x128_S1x64_0_0 : ∀ a, (![0, 0] : Fin 2 → Nat) a + S1x64.size a ≤ S1x128.size a
  h_S1x64 : 0 < S1x64.numel
  shapeCasts_S1x64_S1x64 : S1x64.ShapeCasts S1x64
  inb_S1x128_S1x64_0_64 : ∀ a, (![0, 64] : Fin 2 → Nat) a + S1x64.size a ≤ S1x128.size a
  broadcasts_S4000x1_S4000x64 : S4000x1.Broadcasts S4000x64
  broadcasts_S1x64_S4000x64 : S1x64.Broadcasts S4000x64
  concatenates_S4000x64_S4000x64_S4000x128_d1 : Shape.Concatenates [S4000x64, S4000x64] S4000x128 1
  inb_S4000x128_S4000x128_0_0 : ∀ a, (![0, 0] : Fin 2 → Nat) a + S4000x128.size a ≤ S4000x128.size a
  h_S4000x128 : 0 < S4000x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x2.size a ≤ S1600000x2.size a
  hwx0_2 : ∀ i : grid0.Coords, EltTy.bits .f32 = 32 ∨ (Rect.block (s := S1600000x2) S4000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S1600000x128.size a
  hwx0_4 : ∀ i : grid0.Coords, EltTy.bits .f32 = 32 ∨ (Rect.block (s := S1600000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_call0_v22) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v29) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v48) S4000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v50) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v51) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v60) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v61) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v62) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v63) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v64) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v65) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64 : Shape := ⟨1, ![64]⟩
abbrev S2x1600000 : Shape := ⟨2, ![2, 1600000]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S100000x64, .f32⟩
  | .hbm, ⟨3, _⟩ => ⟨S1600000, .f32⟩
  | .hbm, ⟨4, _⟩ => ⟨S64, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1600000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000, .f32⟩
  | .hbm, ⟨58, _⟩ => ⟨S1600000, .f32⟩
  | .hbm, ⟨59, _⟩ => ⟨S1600000x1, .f32⟩
  | .hbm, ⟨60, _⟩ => ⟨S1x64, .f32⟩
  | .hbm, ⟨61, _⟩ => ⟨S1600000x64, .f32⟩
  | .hbm, ⟨62, _⟩ => ⟨S1600000x64, .f32⟩
  | .hbm, ⟨63, _⟩ => ⟨S1600000x64, .f32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000, .f32⟩
  | .hbm, ⟨78, _⟩ => ⟨S1600000, .f32⟩
  | .hbm, ⟨79, _⟩ => ⟨S1600000x1, .f32⟩
  | .hbm, ⟨80, _⟩ => ⟨S1x64, .f32⟩
  | .hbm, ⟨81, _⟩ => ⟨S1600000x64, .f32⟩
  | .hbm, ⟨82, _⟩ => ⟨S1600000x64, .f32⟩
  | .hbm, ⟨83, _⟩ => ⟨S1600000x64, .f32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S_, .f32⟩
  | .hbm, ⟨98, _⟩ => ⟨S100000x64, .f32⟩
  | .hbm, ⟨99, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_call1_v0 : Ref sig .tc := ⟨.hbm, 97, rfl⟩
abbrev main_call1_v1 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1600000x1_S1600000x64_0_1 : S1600000x1.BroadcastsInDim S1600000x64 (![0, 1] : Fin 2 → Fin S1600000x64.rank)
  bcast_S1x64_S1600000x64_0_1 : S1x64.BroadcastsInDim S1600000x64 (![0, 1] : Fin 2 → Fin S1600000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Vocabulary.lean ====
/-
  The update of a distribution on a graph, in named pieces.

  Both programs compute, from node features `f` (100000 × 64), a collision and a source term, edge weights `w`,
  64 velocities `xi` and the edge list `ei` (2 × 1600000):
    * `srcIdx`, `dstIdx`: the two rows of the edge list; `wrap`: a negative index counted from the end;
    * `degree ix`: how often each node occurs in `ix`, at least 1;
    * `rows x ix`: the rows of `x` at the (wrapped) indices; `rate w d ix`: `w / d[ix]`;
    * `message a xi fs fd`: `(a[:, None] · xi[None, :]) · (fd − fs)` per edge;
    * `total ix u`: the per-edge rows `u` summed into the nodes `ix`;
    * `update`: `max(0, max(0, f) − 0.1 · (((outflow − inflow) − coll) − src))`.
  `spec` is the whole result in these pieces.  The reference is `spec` word for word; the kernel computes the two
  messages packed side by side in one array (from the scales stacked as two columns, `scalePair`, and the
  velocities laid out twice in a row, `xiRow`) and the update on arrays reshaped to 50000 × 128.
-/
import proofs.«161925_j61005715472412_2_alg».proof.KernelIdeal
import proofs.«161925_j61005715472412_2_alg».proof.ReferenceIdeal
import proofs.«161925_j61005715472412_2_alg».proof.Proof.Gen.KernelIdeal
import proofs.«161925_j61005715472412_2_alg».proof.Proof.Gen.ReferenceIdeal

noncomputable section

namespace Cert.Flow

open Idealize.ShloMosaic Cert.ReferenceIdeal Cert.ReferenceIdeal.Facts₀

variable {F : FTy → Type} [FloatOps F]

/-- Row 0 of the edge list: the source node of every edge. -/
def srcIdx (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of every edge. -/
def dstIdx (ei : IVec S2x1600000 32) : IVec S1600000 32 :=
  shapeCast S1600000 (extractStridedSlice S1x1600000 ![1, 0] ei slices_S2x1600000_S1x1600000_1_0) shapeCasts_S1x1600000_S1600000

/-- A negative index counts from the end: `ix < 0 ? ix + 100000 : ix`. -/
def wrap (ix : IVec S1600000 32) : IVec S1600000 32 :=
  select (cmpi .slt ix (broadcastInDim S1600000 ![] bcast_S_S1600000 (constantI S_ 32 0#32)))
    (addi ix (broadcastInDim S1600000 ![] bcast_S_S1600000 (constantI S_ 32 100000#32))) ix

/-- A per-edge vector as a one-column matrix. -/
def col {α : Type} (v : S1600000.Idx → α) : S1600000x1.Idx → α :=
  broadcastInDim S1600000x1 ![0] bcast_S1600000_S1600000x1_0 v

/-- How many edges name each node in `ix`, and at least one. -/
def degree (ix : IVec S1600000 32) : FVec F S100000 .f32 :=
  maximumf
    (Host.scatterAdd scatter_S100000_S1600000x1_S1600000_n_0_0_1
      (broadcastInDim S100000 ![] bcast_S_S100000 (constant S_ .f32 0x00000000#32)) (col ix)
      (broadcastInDim S1600000 ![] bcast_S_S1600000 (constant S_ .f32 0x3F800000#32)))
    (broadcastInDim S100000 ![] bcast_S_S100000 (constant S_ .f32 0x3F800000#32))

/-- `max(0, x)`, the zero written as the reference's clip writes it. -/
def clip0 (x : FVec F S100000x64 .f32) : FVec F S100000x64 .f32 :=
  maximumf (broadcastInDim S100000x64 ![] bcast_S_S100000x64 (id (constant S_ .f32 0x00000000#32))) x

/-- The rows of `x` at the nodes `ix`, one per edge. -/
def rows (x : FVec F S100000x64 .f32) (ix : IVec S1600000 32) : FVec F S1600000x64 .f32 :=
  Host.gather gather_S100000x64_S1600000x1_S1600000x64_1_0_n_n_0_1_164 x (col (wrap ix))

/-- The edge weight over the degree `d` of the node `ix` names. -/
def rate (w : FVec F S1600000 .f32) (d : FVec F S100000 .f32) (ix : IVec S1600000 32) : FVec F S1600000 .f32 :=
  Host.divf w (Host.gather gather_S100000_S1600000x1_S1600000_n_0_n_n_0_1_1 d (col (wrap ix)))

/-- One pass's message per edge: `(a[:, None] · xi[None, :]) · (fd − fs)`. -/
def message (a : FVec F S1600000 .f32) (xi : FVec F S64 .f32) (fs fd : FVec F S1600000x64 .f32) : FVec F S1600000x64 .f32 :=
  mulf
    (mulf (broadcastInDim S1600000x64 ![0, 1] bcast_S1600000x1_S1600000x64_0_1 (col a))
      (broadcastInDim S1600000x64 ![0, 1] bcast_S1x64_S1600000x64_0_1 (broadcastInDim S1x64 ![1] bcast_S64_S1x64_1 xi)))
    (subf fd fs)

/-- The per-edge rows `u` summed into the nodes `ix` names. -/
def total (ix : IVec S1600000 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32)) (col ix) u

/-- `max(0, max(0, f) − 0.1 · (((outflow − inflow) − coll) − src))`. -/
def update (f inflow outflow coll src : FVec F S100000x64 .f32) : FVec F S100000x64 .f32 :=
  clip0 (subf (clip0 f)
    (mulf (broadcastInDim S100000x64 ![] bcast_S_S100000x64 (constant S_ .f32 0x3DCCCCCD#32))
      (subf (subf (subf outflow inflow) coll) src)))

/-- The inflow: messages scaled by the source's out-degree, summed at the destinations. -/
def inflow (f : FVec F S100000x64 .f32) (w : FVec F S1600000 .f32) (xi : FVec F S64 .f32) (ei : IVec S2x1600000 32) :
    FVec F S100000x64 .f32 :=
  total (dstIdx ei) (message (rate w (degree (srcIdx ei)) (srcIdx ei)) xi (rows (clip0 f) (srcIdx ei)) (rows (clip0 f) (dstIdx ei)))

/-- The outflow: messages scaled by the source's in-degree, summed at the sources. -/
def outflow (f : FVec F S100000x64 .f32) (w : FVec F S1600000 .f32) (xi : FVec F S64 .f32) (ei : IVec S2x1600000 32) :
    FVec F S100000x64 .f32 :=
  total (srcIdx ei) (message (rate w (degree (dstIdx ei)) (srcIdx ei)) xi (rows (clip0 f) (srcIdx ei)) (rows (clip0 f) (dstIdx ei)))

/-- The whole result. -/
def spec (f coll src : FVec F S100000x64 .f32) (w : FVec F S1600000 .f32) (xi : FVec F S64 .f32) (ei : IVec S2x1600000 32) :
    FVec F S100000x64 .f32 :=
  update f (inflow f w xi ei) (outflow f w xi ei) coll src

/-! ## The kernel's own layouts -/

/-- Two per-edge scales stacked as the two columns of one matrix. -/
def scalePair (a b : FVec F S1600000 .f32) : FVec F Cert.KernelIdeal.S1600000x2 .f32 :=
  concatenate Cert.KernelIdeal.S1600000x2 1 [⟨S1600000x1, col a⟩, ⟨S1600000x1, col b⟩]
    Cert.KernelIdeal.Facts₀.concatenates_S1600000x1_S1600000x1_S1600000x2_d1

/-- The 64 velocities laid out twice in one row of 128. -/
def xiRow (xi : FVec F S64 .f32) : FVec F Cert.KernelIdeal.S1x128 .f32 :=
  shapeCast Cert.KernelIdeal.S1x128
    (concatenate Cert.KernelIdeal.S128 0 [⟨S64, xi⟩, ⟨S64, xi⟩] Cert.KernelIdeal.Facts₀.concatenates_S64_S64_S128_d0)
    Cert.KernelIdeal.Facts₀.shapeCasts_S128_S1x128

end Cert.Flow

end
-- ==== Proof.KernelRun.lean ====
/-
  The idealized kernel's run, with its result named.

  @main is five segments: host operations, the edge kernel's region, host operations, the node kernel's region,
  and one closing reshape.  The generated frame carries the contents of every unscoped buffer from one segment
  boundary to the next (`W0 … W5`).  Here the same run is read at the result buffer too: every weakly fair
  execution terminates with the result at the last boundary's contents `W5`, and the six arguments as launched.
-/
import proofs.«161925_j61005715472412_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, without a fault, with the result buffer at the contents the
    last segment boundary names and each argument array as launched. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Result

end
-- ==== Proof.Packed.lean ====
/-
  The edge kernel's packed output, as one function of whole arrays.

  For every edge `e` the first kernel writes one row of 128 entries: entries `0 … 63` hold the message of the
  inflow pass and entries `64 … 127` the message of the outflow pass.  With `l` the entry's position, `l / 64`
  says which of the two per-edge scales is used and `l % 64` which of the 64 velocity components:
      out(e, l) = (scale(e, l / 64) · xi(0, l)) · (f_dst(e, l % 64) − f_src(e, l % 64)).
  The same expression describes one block of 4000 edges and the whole array of 1600000 edges, so the number of
  rows is a parameter.  The second kernel's body is pointwise (`step`), the same at every shape.
-/
import Idealize.ShloMosaic.PureOps
import Idealize.ShloMosaic.Lib.Pipeline.Value
import Idealize.ShloMosaic.Lib.ValueIdx

noncomputable section

namespace Cert.Flow

open Idealize.ShloMosaic Idealize.ShloMosaic.ValueIdx

variable {F : FTy → Type} [FloatOps F]

/-- Row `e`, entry `l`: `(scale(e, l / 64) · xi(0, l)) · (f_dst(e, l % 64) − f_src(e, l % 64))`. -/
def packed (n : Nat) (fs fd : FVec F ⟨2, ![n, 64]⟩ .f32) (sc : FVec F ⟨2, ![n, 2]⟩ .f32) (xi : FVec F ⟨2, ![1, 128]⟩ .f32) :
    FVec F ⟨2, ![n, 128]⟩ .f32 :=
  mulf (mulf (fun i => sc (ix2 (i 0) ⟨(i 1).val / 64, by have := idx2_lt1 i; omega⟩)) (fun i => xi (ix2 0 (i 1))))
    (subf (fun i => fd (ix2 (i 0) ⟨(i 1).val % 64, Nat.mod_lt _ (by decide)⟩))
      (fun i => fs (ix2 (i 0) ⟨(i 1).val % 64, Nat.mod_lt _ (by decide)⟩)))

/-- The node update as one pointwise expression of whole arrays of any shape `s`:
    `max(0, max(0, f) − 0.1 · (((outflow − inflow) − coll) − src))`. -/
def step (s : Shape) (f inflow outflow coll src : FVec F s .f32) : FVec F s .f32 :=
  maximumf (broadcast s (Scalar.ofBits .f32 0x00000000#32))
    (subf (maximumf (broadcast s (Scalar.ofBits .f32 0x00000000#32)) f)
      (mulf (broadcast s (Scalar.ofBits .f32 0x3DCCCCCD#32)) (subf (subf (subf outflow inflow) coll) src)))

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Flow

end
-- ==== Proof.Layout.lean ====
/-
  The kernel's layouts read back.

  Three facts about arrangements, none about arithmetic:
    * the first 64 entries of every row of the packed array, built from the two scales stacked as columns and the
      velocities laid out twice, are the message of the first scale (`packed_lo`);
    * the last 64 entries are the message of the second scale (`packed_hi`);
    * the pointwise step on arrays reshaped from 100000 × 64 to 50000 × 128, reshaped back, is the pointwise update on
      the arrays themselves (`step_reshaped`): a reshape keeps the row-major order, and there and back is the identity.
-/
import proofs.«161925_j61005715472412_2_alg».proof.Proof.Vocabulary
import proofs.«161925_j61005715472412_2_alg».proof.Proof.Packed
import Idealize.ShloMosaic.Lib.Pipeline.Value
import Idealize.ShloMosaic.Lib.ValueIdx
import Idealize.ShloMosaic.Lib.ValueLayout

set_option maxRecDepth 16384

noncomputable section

namespace Cert.Flow

open Idealize.ShloMosaic Idealize.ShloMosaic.ValueIdx Cert.ReferenceIdeal Cert.ReferenceIdeal.Facts₀

variable {F : FTy → Type} [FloatOps F]

/-- A per-edge scale, made a column and spread over 64 entries, reads the edge's scale. -/
theorem spread_col (a : FVec F S1600000 .f32) (e : Fin 1600000) (l : Fin 64) :
    broadcastInDim S1600000x64 ![0, 1] bcast_S1600000x1_S1600000x64_0_1 (col a) (ix2 e l) = col a (ix2 e (0 : Fin 1)) :=
  broadcastInDim_apply _ _ _ (ix2 e l) (ix2 e (0 : Fin 1)) fun ax => by
    match ax with
    | ⟨0, _⟩ => rfl
    | ⟨1, _⟩ => rfl

/-- The velocities, made a row and spread over the edges, read the velocity of the entry. -/
theorem spread_row (xi : FVec F S64 .f32) (e : Fin 1600000) (l : Fin 64) :
    broadcastInDim S1600000x64 ![0, 1] bcast_S1x64_S1600000x64_0_1 (broadcastInDim S1x64 ![1] bcast_S64_S1x64_1 xi) (ix2 e l)
      = xi (ix1 l) :=
  (broadcastInDim_apply _ _ _ (ix2 e l) (ix2 (0 : Fin 1) l) fun ax => by
    match ax with
    | ⟨0, _⟩ => rfl
    | ⟨1, _⟩ => rfl).trans
  (broadcastInDim_apply _ _ _ (ix2 (0 : Fin 1) l) (ix1 l) fun ax => by
    match ax with
    | ⟨0, _⟩ => rfl)

/-- Column 0 of the stacked scales is the first scale. -/
theorem scalePair_fst (a b : FVec F S1600000 .f32) (e : Fin 1600000) :
    scalePair a b (ix2 e (0 : Fin 2)) = col a (ix2 e (0 : Fin 1)) :=
  concatenate_pair_apply_left (s₁ := S1600000x1) (s₂ := S1600000x1) (t := Cert.KernelIdeal.S1600000x2) (1 : Fin 2) _ _ _
    (ix2 e (0 : Fin 2)) rfl (ix2 e (0 : Fin 1)) fun b => by
      match b with
      | ⟨0, _⟩ => rfl
      | ⟨1, _⟩ => rfl

/-- Column 1 of the stacked scales is the second scale. -/
theorem scalePair_snd (a b : FVec F S1600000 .f32) (e : Fin 1600000) :
    scalePair a b (ix2 e (1 : Fin 2)) = col b (ix2 e (0 : Fin 1)) :=
  concatenate_pair_apply_right (s₁ := S1600000x1) (s₂ := S1600000x1) (t := Cert.KernelIdeal.S1600000x2) (1 : Fin 2) _ _ _
    (ix2 e (1 : Fin 2)) rfl rfl (ix2 e (0 : Fin 1))
    (fun b hb => by
      match b with
      | ⟨0, _⟩ => rfl
      | ⟨1, _⟩ => exact absurd rfl hb)
    rfl

/-- Entry `l < 64` of the doubled velocity row is velocity `l`. -/
theorem xiRow_lo (xi : FVec F S64 .f32) (l : Fin 64) :
    xiRow xi (ix2 (0 : Fin 1) (⟨l.val, by omega⟩ : Fin 128)) = xi (ix1 l) :=
  (shapeCast_a_1a_apply _ _ (0 : Fin 1) (⟨l.val, by omega⟩ : Fin 128)).trans
    (concatenate_pair_apply_left (s₁ := S64) (s₂ := S64) (t := Cert.KernelIdeal.S128) (0 : Fin 1) _ _ _
      (ix1 (⟨l.val, by omega⟩ : Fin 128)) rfl (ix1 l) fun b => by
        match b with
        | ⟨0, _⟩ => rfl)

/-- Entry `64 + l` of the doubled velocity row is velocity `l` again. -/
theorem xiRow_hi (xi : FVec F S64 .f32) (l : Fin 64) :
    xiRow xi (ix2 (0 : Fin 1) (⟨64 + l.val, by omega⟩ : Fin 128)) = xi (ix1 l) :=
  (shapeCast_a_1a_apply _ _ (0 : Fin 1) (⟨64 + l.val, by omega⟩ : Fin 128)).trans
    (concatenate_pair_apply_right (s₁ := S64) (s₂ := S64) (t := Cert.KernelIdeal.S128) (0 : Fin 1) _ _ _
      (ix1 (⟨64 + l.val, by omega⟩ : Fin 128)) rfl rfl (ix1 l)
      (fun b hb => by
        match b with
        | ⟨0, _⟩ => exact absurd rfl hb)
      (by show l.val + 64 = 64 + l.val; omega))

/-- The first half of every packed row is the message of the first scale. -/
theorem packed_lo (a b : FVec F S1600000 .f32) (xi : FVec F S64 .f32) (fs fd : FVec F S1600000x64 .f32) :
    extractStridedSlice S1600000x64 ![0, 0] (packed 1600000 fs fd (scalePair a b) (xiRow xi))
        Cert.KernelIdeal.Facts₀.slices_S1600000x128_S1600000x64_0_0
      = message a xi fs fd := by
  funext j
  obtain ⟨e, l, rfl⟩ : ∃ (e : Fin 1600000) (l : Fin 64), j = ix2 e l := ⟨j 0, j 1, eq_ix2 j⟩
  have hl : l.val < 64 := l.isLt
  have d0 : (⟨l.val / 64, by omega⟩ : Fin 2) = 0 := Fin.ext (Nat.div_eq_of_lt hl)
  have d1 : (⟨l.val % 64, Nat.mod_lt _ (by decide)⟩ : Fin 64) = l := Fin.ext (Nat.mod_eq_of_lt hl)
  refine (slice2_axis1_apply 0 _ _ e l (⟨l.val, by omega⟩ : Fin 128) (Nat.zero_add _).symm).trans ?_
  show FloatOps.mulf (FloatOps.mulf (scalePair a b _) (xiRow xi _)) (FloatOps.subf (fd _) (fs _))
    = FloatOps.mulf (FloatOps.mulf _ _) (FloatOps.subf (fd (ix2 e l)) (fs (ix2 e l)))
  refine congrArg₂ _ (congrArg₂ _ ?_ ?_) (congrArg₂ _ (congrArg fd ?_) (congrArg fs ?_))
  · refine ((congrArg (fun k => scalePair a b (ix2 e k)) d0).trans (scalePair_fst a b e)).trans (spread_col a e l).symm
  · exact (xiRow_lo xi l).trans (spread_row xi e l).symm
  · exact congrArg (ix2 e) d1
  · exact congrArg (ix2 e) d1

/-- The second half of every packed row is the message of the second scale. -/
theorem packed_hi (a b : FVec F S1600000 .f32) (xi : FVec F S64 .f32) (fs fd : FVec F S1600000x64 .f32) :
    extractStridedSlice S1600000x64 ![0, 64] (packed 1600000 fs fd (scalePair a b) (xiRow xi))
        Cert.KernelIdeal.Facts₀.slices_S1600000x128_S1600000x64_0_64
      = message b xi fs fd := by
  funext j
  obtain ⟨e, l, rfl⟩ : ∃ (e : Fin 1600000) (l : Fin 64), j = ix2 e l := ⟨j 0, j 1, eq_ix2 j⟩
  have hl : l.val < 64 := l.isLt
  have d0 : (⟨(64 + l.val) / 64, by omega⟩ : Fin 2) = 1 := Fin.ext (by show (64 + l.val) / 64 = 1; omega)
  have d1 : (⟨(64 + l.val) % 64, Nat.mod_lt _ (by decide)⟩ : Fin 64) = l := Fin.ext (by show (64 + l.val) % 64 = l.val; omega)
  refine (slice2_axis1_apply 64 _ _ e l (⟨64 + l.val, by omega⟩ : Fin 128) rfl).trans ?_
  show FloatOps.mulf (FloatOps.mulf (scalePair a b _) (xiRow xi _)) (FloatOps.subf (fd _) (fs _))
    = FloatOps.mulf (FloatOps.mulf _ _) (FloatOps.subf (fd (ix2 e l)) (fs (ix2 e l)))
  refine congrArg₂ _ (congrArg₂ _ ?_ ?_) (congrArg₂ _ (congrArg fd ?_) (congrArg fs ?_))
  · refine ((congrArg (fun k => scalePair a b (ix2 e k)) d0).trans (scalePair_snd a b e)).trans (spread_col b e l).symm
  · exact (xiRow_hi xi l).trans (spread_row xi e l).symm
  · exact congrArg (ix2 e) d1
  · exact congrArg (ix2 e) d1

/-- The update is the pointwise step at the arrays' own shape (the zeros and the 0.1 are the same words, spread
    over the array one way or the other). -/
theorem update_eq_step (f i o cl s : FVec F S100000x64 .f32) : update f i o cl s = step S100000x64 f i o cl s := by
  funext j; rfl

/-- The pointwise step commutes with a reshape. -/
theorem shapeCast_step {s t : Shape} (h : s.ShapeCasts t) (f i o cl sr : FVec F s .f32) :
    shapeCast t (step s f i o cl sr) h = step t (shapeCast t f h) (shapeCast t i h) (shapeCast t o h) (shapeCast t cl h) (shapeCast t sr h) := by
  funext j; rfl

/-- The step on the arrays reshaped to 50000 × 128, reshaped back, is the update. -/
theorem step_reshaped (f i o cl s : FVec F S100000x64 .f32) :
    shapeCast S100000x64
        (step Cert.KernelIdeal.S50000x128
          (shapeCast Cert.KernelIdeal.S50000x128 f Cert.KernelIdeal.Facts₀.shapeCasts_S100000x64_S50000x128)
          (shapeCast Cert.KernelIdeal.S50000x128 i Cert.KernelIdeal.Facts₀.shapeCasts_S100000x64_S50000x128)
          (shapeCast Cert.KernelIdeal.S50000x128 o Cert.KernelIdeal.Facts₀.shapeCasts_S100000x64_S50000x128)
          (shapeCast Cert.KernelIdeal.S50000x128 cl Cert.KernelIdeal.Facts₀.shapeCasts_S100000x64_S50000x128)
          (shapeCast Cert.KernelIdeal.S50000x128 s Cert.KernelIdeal.Facts₀.shapeCasts_S100000x64_S50000x128))
        Cert.KernelIdeal.Facts₀.shapeCasts_S50000x128_S100000x64
      = update f i o cl s := by
  rw [shapeCast_step, shapeCast_shapeCast, shapeCast_shapeCast, shapeCast_shapeCast, shapeCast_shapeCast, shapeCast_shapeCast,
    update_eq_step]

end Cert.Flow

end
-- ==== Proof.EdgeBlocks.lean ====
/-
  The edge messages, block by block.

  The first kernel runs over 400 grid points.  At point `t` it is handed rows `4000·t … 4000·t + 3999` of the two
  gathered feature arrays (4000 × 64 each) and of the scale array (4000 × 2), the whole 1 × 128 row of velocities,
  and rows `4000·t …` of the 1600000 × 128 output.  Its body forms `f_dst − f_src`, multiplies it once by
  (first scale column · first half of the velocity row) and once by (second scale column · second half), and
  stores the two 4000 × 64 results side by side.  Entry by entry that is the packed expression of Packed.lean on
  the block (`pay_eq`), the blocks are restrictions of the packed expression of the whole arrays (`flushed_eq`),
  and the 400 blocks tile the output (`cover`).
-/
import proofs.«161925_j61005715472412_2_alg».proof.Proof.Gen.KernelIdeal.Frame
import proofs.«161925_j61005715472412_2_alg».proof.Proof.Packed
import Idealize.ShloMosaic.Lib.Pipeline.Value
import Idealize.ShloMosaic.Lib.ValueIdx
import Idealize.ShloMosaic.Lib.ValueLayout

set_option maxRecDepth 16384

noncomputable section

namespace Cert.KernelIdeal.EdgeMsg

open Cert.KernelIdeal Cert.KernelIdeal.Gen Idealize.ShloMosaic Idealize.ShloMosaic.TcCoe Idealize.SL.Sem Idealize.ShloMosaic.ValueIdx
open Idealize.ShloMosaic.Pipeline (Dat)
open Cert.Flow (packed broadcastTo_a1_ab_apply)

variable {F : FTy → Type} [FloatOps F]

/-- The body's stored value is the packed expression of the blocks it loaded: `xlo` and `xhi` are the two halves of
    the velocity row `xi`; position `q < 64` falls in the first stored piece, `q ≥ 64` in the second at `q − 64`. -/
theorem pay_eq (fd fs : Vec F S4000x64 .f32) (sc : Vec F S4000x2 .f32) (xlo xhi : Vec F S1x64 .f32) (xi : Vec F S1x128 .f32)
    (hlo : ∀ l : Fin 64, xlo (ix2 0 l) = xi (ix2 0 ⟨l.val, by omega⟩))
    (hhi : ∀ l : Fin 64, xhi (ix2 0 l) = xi (ix2 0 ⟨l.val + 64, by omega⟩)) :
    k0_pay1 fd fs sc xlo xhi = packed 4000 fs fd sc xi := by
  unfold k0_pay1
  funext j
  obtain ⟨p, q, rfl⟩ : ∃ (p : Fin 4000) (q : Fin 128), j = ix2 p q := ⟨j 0, j 1, eq_ix2 j⟩
  by_cases hq : q.val < 64
  · have d0 : (⟨q.val / 64, by omega⟩ : Fin 2) = 0 := Fin.ext (Nat.div_eq_of_lt hq)
    have d1 : (⟨q.val % 64, Nat.mod_lt _ (by decide)⟩ : Fin 64) = ⟨q.val, hq⟩ := Fin.ext (Nat.mod_eq_of_lt hq)
    refine (concatenate_pair_apply_left (s₁ := S4000x64) (s₂ := S4000x64) (t := S4000x128) (1 : Fin 2) _ _ _ (ix2 p q) rfl (ix2 (n0 := 4000) (n1 := 64) p ⟨q.val, hq⟩) ?_).trans ?_
    · intro b; match b with
      | ⟨0, _⟩ => rfl
      | ⟨1, _⟩ => rfl
    · show FloatOps.mulf (FloatOps.mulf _ _) (FloatOps.subf _ _) = FloatOps.mulf (FloatOps.mulf _ _) (FloatOps.subf _ _)
      refine congrArg₂ _ (congrArg₂ _ ?_ ?_) (congrArg₂ _ ?_ ?_)
      · refine ((broadcastTo_a1_ab_apply _ broadcasts_S4000x1_S4000x64 p ⟨q.val, hq⟩).trans
          (slice2_axis1_apply 0 _ slices_S4000x2_o0_0_S4000x1 p (0 : Fin 1) (0 : Fin 2) rfl)).trans ?_
        rw [shapeCast_self]
        exact congrArg sc (congrArg (ix2 p) d0.symm)
      · refine (broadcastTo_1b_ab_apply _ broadcasts_S1x64_S4000x64 p ⟨q.val, hq⟩).trans ?_
        rw [shapeCast_self]
        exact hlo ⟨q.val, hq⟩
      · rw [shapeCast_self]; exact congrArg fd (congrArg (ix2 p) d1.symm)
      · rw [shapeCast_self]; exact congrArg fs (congrArg (ix2 p) d1.symm)
  · have hq2 : q.val < 128 := q.isLt
    have d0 : (⟨q.val / 64, by omega⟩ : Fin 2) = 1 := Fin.ext (by show q.val / 64 = 1; omega)
    have d1 : (⟨q.val % 64, Nat.mod_lt _ (by decide)⟩ : Fin 64) = ⟨q.val - 64, by omega⟩ := Fin.ext (by show q.val % 64 = q.val - 64; omega)
    refine (concatenate_pair_apply_right (s₁ := S4000x64) (s₂ := S4000x64) (t := S4000x128) (1 : Fin 2) _ _ _ (ix2 p q) rfl rfl (ix2 (n0 := 4000) (n1 := 64) p ⟨q.val - 64, by omega⟩) ?_ ?_).trans ?_
    · intro b hb; match b with
      | ⟨0, _⟩ => rfl
      | ⟨1, _⟩ => exact absurd rfl hb
    · show (q.val - 64) + 64 = q.val; omega
    · show FloatOps.mulf (FloatOps.mulf _ _) (FloatOps.subf _ _) = FloatOps.mulf (FloatOps.mulf _ _) (FloatOps.subf _ _)
      refine congrArg₂ _ (congrArg₂ _ ?_ ?_) (congrArg₂ _ ?_ ?_)
      · refine ((broadcastTo_a1_ab_apply _ broadcasts_S4000x1_S4000x64 p ⟨q.val - 64, by omega⟩).trans
          (slice2_axis1_apply 1 _ slices_S4000x2_o0_1_S4000x1 p (0 : Fin 1) (1 : Fin 2) rfl)).trans ?_
        rw [shapeCast_self]
        exact congrArg sc (congrArg (ix2 p) d0.symm)
      · refine (broadcastTo_1b_ab_apply _ broadcasts_S1x64_S4000x64 p ⟨q.val - 64, by omega⟩).trans ?_
        rw [shapeCast_self]
        refine (hhi ⟨q.val - 64, by omega⟩).trans ?_
        exact congrArg (fun k => xi (ix2 0 k)) (Fin.ext (by show q.val - 64 + 64 = q.val; omega))
      · rw [shapeCast_self]; exact congrArg fd (congrArg (ix2 p) d1.symm)
      · rw [shapeCast_self]; exact congrArg fs (congrArg (ix2 p) d1.symm)

/-- The load of the first 64 entries of the velocity row reads entry `l`. -/
theorem ld_lo (x : Vec F S1x128 .f32) (l : Fin 64) : View.ld x r0_2 (ix2 0 l) = x (ix2 0 ⟨l.val, by omega⟩) := by
  refine congrArg x (funext fun a => Fin.ext ?_)
  match a with
  | ⟨0, _⟩ => rfl
  | ⟨1, _⟩ => show 0 + 1 * l.val = l.val; omega

/-- The load of the last 64 entries of the velocity row reads entry `l + 64`. -/
theorem ld_hi (x : Vec F S1x128 .f32) (l : Fin 64) : View.ld x r0_3 (ix2 0 l) = x (ix2 0 ⟨l.val + 64, by omega⟩) := by
  refine congrArg x (funext fun a => Fin.ext ?_)
  match a with
  | ⟨0, _⟩ => rfl
  | ⟨1, _⟩ => show 64 + 1 * l.val = l.val + 64; omega

theorem zero_off : (![0, 0] : Fin 2 → Nat) = fun _ => 0 := funext fun a => by fin_cases a <;> rfl

/-- The block indices at every point: the feature, scale and output windows are at block row `t`; the velocity row
    is always the one block there is. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt F) ((c : Thread nD τ).loc b))

/-- What point `t` writes back is block `t` of the packed expression of the four input arrays as the region finds them. -/
theorem flushed_eq (c : Dev nD) (t : Fin cfg0.N) :
    (dat0 V c).flushed 4 t = ((cfg0.win 4).blk t).view.read (Elt F)
      (packed 1600000 (V c main_call0_v22) (V c main_call0_v29) (V c main_call0_v48) (V c main_call0_v50)) := by
  show (cfg0.win 4).cut (grid0.coords t) ((dat0 V c).after 4 t) = _
  rw [after0_4]
  unfold out0_4
  rw [View.canon_unit_zero zero_off]
  simp only [View.ld_unit_zero (S := S4000x64) zero_off, View.ld_unit_zero (S := S4000x2) zero_off]
  rw [pay_eq _ _ _ _ _ (iblk0 V c 3 t) (ld_lo _) (ld_hi _)]
  obtain ⟨a0, b0, a1, b1, a2, b2, a3, b3, a4, b4⟩ := idx_facts t
  funext j
  have hj0 : (j 0).val < 4000 := (j 0).isLt
  have hj1 : (j 1).val < 128 := (j 1).isLt
  show FloatOps.mulf (FloatOps.mulf (V c main_call0_v48 _) (V c main_call0_v50 _)) (FloatOps.subf (V c main_call0_v29 _) (V c main_call0_v22 _))
    = FloatOps.mulf (FloatOps.mulf (V c main_call0_v48 _) (V c main_call0_v50 _)) (FloatOps.subf (V c main_call0_v29 _) (V c main_call0_v22 _))
  refine congrArg₂ _ (congrArg₂ _ (congrArg (V c main_call0_v48) ?_) (congrArg (V c main_call0_v50) ?_))
    (congrArg₂ _ (congrArg (V c main_call0_v29) ?_) (congrArg (V c main_call0_v22) ?_))
  · funext a; apply Fin.ext
    match a with
    | ⟨0, _⟩ => show win0_2.index t (0 : Fin 2) * 4000 + 1 * (j 0).val = win0_4.index t (0 : Fin 2) * 4000 + 1 * (j 0).val; omega
    | ⟨1, _⟩ => show win0_2.index t (1 : Fin 2) * 2 + 1 * ((j 1).val / 64) = (win0_4.index t (1 : Fin 2) * 128 + 1 * (j 1).val) / 64; omega
  · funext a; apply Fin.ext
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega
  · funext a; apply Fin.ext
    match a with
    | ⟨0, _⟩ => show win0_1.index t (0 : Fin 2) * 4000 + 1 * (j 0).val = win0_4.index t (0 : Fin 2) * 4000 + 1 * (j 0).val; omega
    | ⟨1, _⟩ => show win0_1.index t (1 : Fin 2) * 64 + 1 * ((j 1).val % 64) = (win0_4.index t (1 : Fin 2) * 128 + 1 * (j 1).val) % 64; omega
  · funext a; apply Fin.ext
    match a with
    | ⟨0, _⟩ => show win0_0.index t (0 : Fin 2) * 4000 + 1 * (j 0).val = win0_4.index t (0 : Fin 2) * 4000 + 1 * (j 0).val; omega
    | ⟨1, _⟩ => show win0_0.index t (1 : Fin 2) * 64 + 1 * ((j 1).val % 64) = (win0_4.index t (1 : Fin 2) * 128 + 1 * (j 1).val) % 64; omega

/-- An index of the output array is in point `t`'s block iff each coordinate is in the block's range on its axis. -/
theorem mem_blk (t : Fin cfg0.N) (i : S1600000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_call0_v51).slice (win0_4.rect t)).set ↔ _
  rw [View.set_slice_whole, Rect.mem_set_unit]
  exact Iff.rfl

/-- Edge `e`'s row of the output is covered by point `e / 4000`. -/
theorem cover (i : S1600000x128.Idx) : ∃ t : Fin cfg0.N, (cfg0.win 4).flush t = true ∧ i ∈ ((cfg0.win 4).blk t).view.set := by
  have hi0 : (i 0).val < 1600000 := (i 0).isLt
  have hi1 : (i 1).val < 128 := (i 1).isLt
  have hN : (i 0).val / 4000 < cfg0.N := by rw [show cfg0.N = 400 from N_0]; omega
  obtain ⟨a0, b0, a1, b1, a2, b2, a3, b3, a4, b4⟩ := idx_facts ⟨(i 0).val / 4000, hN⟩
  refine ⟨⟨(i 0).val / 4000, hN⟩, flush0_4 _, ?_⟩
  rw [mem_blk]
  intro a
  match a with
  | ⟨0, _⟩ =>
    show win0_4.index ⟨(i 0).val / 4000, hN⟩ (0 : Fin 2) * 4000 ≤ (i 0).val ∧ (i 0).val < win0_4.index ⟨(i 0).val / 4000, hN⟩ (0 : Fin 2) * 4000 + 4000
    rw [a4]; show (i 0).val / 4000 * 4000 ≤ (i 0).val ∧ (i 0).val < (i 0).val / 4000 * 4000 + 4000; omega
  | ⟨1, _⟩ =>
    show win0_4.index ⟨(i 0).val / 4000, hN⟩ (1 : Fin 2) * 128 ≤ (i 1).val ∧ (i 1).val < win0_4.index ⟨(i 0).val / 4000, hN⟩ (1 : Fin 2) * 128 + 128
    rw [b4]; omega

/-- The packed output array after the region: the packed expression of the four input arrays as the region finds them. -/
theorem final (c : Dev nD) :
    (dat0 V c).arrAt 4 cfg0.N
      = packed 1600000 (V c main_call0_v22) (V c main_call0_v29) (V c main_call0_v48) (V c main_call0_v50) :=
  (dat0 V c).arrAt_eq_of_cover 4 _ (fun t _ => flushed_eq V c t) cover

end Cert.KernelIdeal.EdgeMsg

end
-- ==== Proof.NodeBlocks.lean ====
/-
  The node update, block by block.

  The second kernel runs over 25 grid points.  At point `t` each of its six windows holds rows
  `2000·t … 2000·t + 1999` of a 50000 × 128 array, and the body stores, entry by entry,
      max(0, max(0, f) − 0.1 · (((out − in) − coll) − src))
  of the five input blocks into the output block.  Every operation is pointwise and all six windows move
  together, so the output array after the run is the same pointwise expression of the five whole input arrays
  (`step`): each point writes back the block of `step` it covers (`flushed_eq`), and the 25 blocks tile the
  array (`cover`).
-/
import proofs.«161925_j61005715472412_2_alg».proof.Proof.Gen.KernelIdeal.Frame
import proofs.«161925_j61005715472412_2_alg».proof.Proof.Packed
import Idealize.ShloMosaic.Lib.Pipeline.Value
import Idealize.ShloMosaic.Lib.ValueIdx

set_option maxRecDepth 16384

noncomputable section

namespace Cert.KernelIdeal.NodeStep

open Cert.KernelIdeal Cert.KernelIdeal.Gen Idealize.ShloMosaic Idealize.ShloMosaic.TcCoe Idealize.SL.Sem
open Idealize.ShloMosaic.Pipeline (Dat)
open Cert.Flow (step)

variable {F : FTy → Type} [FloatOps F]

/-- The body's stored value is `step` of the blocks it loaded (the body's shape casts are between equal shapes). -/
theorem pay_eq (f outflow inflow coll src : Vec F S2000x128 .f32) :
    k1_pay1 f outflow inflow coll src = step S2000x128 f inflow outflow coll src := by
  unfold k1_pay1 step
  simp only [shapeCast_self]

theorem zero_off : (![0, 0] : Fin 2 → Nat) = fun _ => 0 := funext fun a => by fin_cases a <;> rfl

/-- All six windows have the same block index at every point: block row `t`, block column `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt F) ((c : Thread nD τ).loc b))

/-- What point `t` writes back is block `t` of `step` of the five input arrays as the region finds them. -/
theorem flushed_eq (c : Dev nD) (t : Fin cfg1.N) :
    (dat1 V c).flushed 5 t = ((cfg1.win 5).blk t).view.read (Elt F)
      (step S50000x128 (V c main_call0_v60) (V c main_call0_v61) (V c main_call0_v62) (V c main_call0_v63) (V c main_call0_v64)) := by
  show (cfg1.win 5).cut (grid1.coords t) ((dat1 V c).after 5 t) = _
  rw [after1_5]
  unfold out1_5
  rw [View.canon_unit_zero zero_off]
  simp only [View.ld_unit_zero (S := S2000x128) zero_off]
  rw [pay_eq]
  obtain ⟨a0, b0, a1, b1, a2, b2, a3, b3, a4, b4, a5, b5⟩ := idx_facts t
  funext j
  have h0 : ((cfg1.win 0).blk t).view.emb j = ((cfg1.win 5).blk t).view.emb j := by
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb j = ((cfg1.win 5).blk t).view.emb j := by
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * (j 1).val = win1_5.index t (1 : Fin 2) * 128 + 1 * (j 1).val; omega
  have h2 : ((cfg1.win 2).blk t).view.emb j = ((cfg1.win 5).blk t).view.emb j := by
    funext a; apply Fin.ext
    match a with
    | ⟨0, _⟩ => show win1_2.index t (0 : Fin 2) * 2000 + 1 * (j 0).val = win1_5.index t (0 : Fin 2) * 2000 + 1 * (j 0).val; omega
    | ⟨1, _⟩ => show win1_2.index t (1 : Fin 2) * 128 + 1 * (j 1).val = win1_5.index t (1 : Fin 2) * 128 + 1 * (j 1).val; omega
  have h3 : ((cfg1.win 3).blk t).view.emb j = ((cfg1.win 5).blk t).view.emb j := by
    funext a; apply Fin.ext
    match a with
    | ⟨0, _⟩ => show win1_3.index t (0 : Fin 2) * 2000 + 1 * (j 0).val = win1_5.index t (0 : Fin 2) * 2000 + 1 * (j 0).val; omega
    | ⟨1, _⟩ => show win1_3.index t (1 : Fin 2) * 128 + 1 * (j 1).val = win1_5.index t (1 : Fin 2) * 128 + 1 * (j 1).val; omega
  have h4 : ((cfg1.win 4).blk t).view.emb j = ((cfg1.win 5).blk t).view.emb j := by
    funext a; apply Fin.ext
    match a with
    | ⟨0, _⟩ => show win1_4.index t (0 : Fin 2) * 2000 + 1 * (j 0).val = win1_5.index t (0 : Fin 2) * 2000 + 1 * (j 0).val; omega
    | ⟨1, _⟩ => show win1_4.index t (1 : Fin 2) * 128 + 1 * (j 1).val = win1_5.index t (1 : Fin 2) * 128 + 1 * (j 1).val; omega
  show step S2000x128 (iblk1 V c 0 t) (iblk1 V c 1 t) (iblk1 V c 2 t) (iblk1 V c 3 t) (iblk1 V c 4 t) j
    = step S50000x128 (V c main_call0_v60) (V c main_call0_v61) (V c main_call0_v62) (V c main_call0_v63) (V c main_call0_v64) (((cfg1.win 5).blk t).view.emb j)
  show FloatOps.maximumf _ (FloatOps.subf (FloatOps.maximumf _ (V c main_call0_v60 (((cfg1.win 0).blk t).view.emb j)))
      (FloatOps.mulf _ (FloatOps.subf (FloatOps.subf (FloatOps.subf (V c main_call0_v62 (((cfg1.win 2).blk t).view.emb j)) (V c main_call0_v61 (((cfg1.win 1).blk t).view.emb j))) (V c main_call0_v63 (((cfg1.win 3).blk t).view.emb j))) (V c main_call0_v64 (((cfg1.win 4).blk t).view.emb j))))) = _
  rw [h0, h1, h2, h3, h4]
  rfl

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_call0_v65).slice (win1_5.rect t)).set ↔ _
  rw [View.set_slice_whole, Rect.mem_set_unit]
  exact Iff.rfl

/-- Row `r` of the output array is covered by point `r / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 2000 < cfg1.N := by rw [show cfg1.N = 25 from N_1]; omega
  obtain ⟨a0, b0, a1, b1, a2, b2, a3, b3, a4, b4, a5, b5⟩ := idx_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [a5]; show (i 0).val / 2000 * 2000 ≤ (i 0).val ∧ (i 0).val < (i 0).val / 2000 * 2000 + 2000; omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    rw [b5]; omega

/-- The output array after the region: `step` of the five input arrays as the region finds them. -/
theorem final (c : Dev nD) :
    (dat1 V c).arrAt 5 cfg1.N
      = step S50000x128 (V c main_call0_v60) (V c main_call0_v61) (V c main_call0_v62) (V c main_call0_v63) (V c main_call0_v64) :=
  (dat1 V c).arrAt_eq_of_cover 5 _ (fun t _ => flushed_eq V c t) cover

end Cert.KernelIdeal.NodeStep

end
-- ==== Proof.BoundaryRows.lean ====
/-
  What the first kernel is handed, 1: the clipped features' rows at the edges' sources and at their destinations,
  read back from the sixty host operations @main runs on the launch memory before the first region.
-/
import proofs.«161925_j61005715472412_2_alg».proof.Proof.Gen.KernelIdeal.Frame
import proofs.«161925_j61005715472412_2_alg».proof.Proof.Vocabulary
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Cert.Flow

variable {F : FTy → Type} [FloatOps F]
variable (m : (ℓ : Loc nD τ sig) → Buf (Elt F) ℓ) (ρ : Dev nD → PrngReg)

set_option maxHeartbeats 4000000 in
/-- The clipped features' rows at the edges' sources. -/
theorem rows_src (c : Dev nD) :
    V1 m ρ c main_call0_v22 = rows (clip0 (m ((c : Thread nD τ).loc main_arg0))) (srcIdx (m ((c : Thread nD τ).loc main_arg5))) := by
  show StableHlo.after hostOps0 (W0 m ρ c) (Proc.devRef .tc main_call0_v22) = _
  after_results_simp
  rfl

set_option maxHeartbeats 4000000 in
/-- The clipped features' rows at the edges' destinations. -/
theorem rows_dst (c : Dev nD) :
    V1 m ρ c main_call0_v29 = rows (clip0 (m ((c : Thread nD τ).loc main_arg0))) (dstIdx (m ((c : Thread nD τ).loc main_arg5))) := by
  show StableHlo.after hostOps0 (W0 m ρ c) (Proc.devRef .tc main_call0_v29) = _
  after_results_simp
  rfl

end Cert.KernelIdeal.Boundary

end
-- ==== Proof.BoundaryScales.lean ====
/-
  What the first kernel is handed, 2: the two per-edge scales — the weight over the source's out-degree and over the
  source's in-degree — stacked as the two columns of one matrix.
-/
import proofs.«161925_j61005715472412_2_alg».proof.Proof.Gen.KernelIdeal.Frame
import proofs.«161925_j61005715472412_2_alg».proof.Proof.Vocabulary
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Cert.Flow

variable {F : FTy → Type} [FloatOps F]
variable (m : (ℓ : Loc nD τ sig) → Buf (Elt F) ℓ) (ρ : Dev nD → PrngReg)

set_option maxHeartbeats 4000000 in
/-- The two per-edge scales, stacked as two columns: the weight over the source's out-degree and over its in-degree. -/
theorem scales (c : Dev nD) :
    V1 m ρ c main_call0_v48
      = scalePair (rate (m ((c : Thread nD τ).loc main_arg3)) (degree (srcIdx (m ((c : Thread nD τ).loc main_arg5)))) (srcIdx (m ((c : Thread nD τ).loc main_arg5))))
          (rate (m ((c : Thread nD τ).loc main_arg3)) (degree (dstIdx (m ((c : Thread nD τ).loc main_arg5)))) (srcIdx (m ((c : Thread nD τ).loc main_arg5)))) := by
  show StableHlo.after hostOps0 (W0 m ρ c) (Proc.devRef .tc main_call0_v48) = _
  after_results_simp
  rfl

end Cert.KernelIdeal.Boundary

end
-- ==== Proof.BoundaryIndex.lean ====
/-
  What the first kernel is handed, 3: the velocities laid out twice in one row; and the two rows of the edge list,
  which the host operations after the first region read again.
-/
import proofs.«161925_j61005715472412_2_alg».proof.Proof.Gen.KernelIdeal.Frame
import proofs.«161925_j61005715472412_2_alg».proof.Proof.Vocabulary
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Cert.Flow

variable {F : FTy → Type} [FloatOps F]
variable (m : (ℓ : Loc nD τ sig) → Buf (Elt F) ℓ) (ρ : Dev nD → PrngReg)

set_option maxHeartbeats 4000000 in
/-- The velocities laid out twice in one row. -/
theorem velocities (c : Dev nD) : V1 m ρ c main_call0_v50 = xiRow (m ((c : Thread nD τ).loc main_arg4)) := by
  show StableHlo.after hostOps0 (W0 m ρ c) (Proc.devRef .tc main_call0_v50) = _
  after_results_simp
  rfl

set_option maxHeartbeats 4000000 in
/-- The sources' row of the edge list. -/
theorem src_row (c : Dev nD) : W1 m ρ c (Proc.devRef .tc main_call0_v1) = srcIdx (m ((c : Thread nD τ).loc main_arg5)) := by
  show StableHlo.after hostOps0 (W0 m ρ c) (Proc.devRef .tc main_call0_v1) = _
  after_results_simp
  rfl

set_option maxHeartbeats 4000000 in
/-- The destinations' row of the edge list. -/
theorem dst_row (c : Dev nD) : W1 m ρ c (Proc.devRef .tc main_call0_v3) = dstIdx (m ((c : Thread nD τ).loc main_arg5)) := by
  show StableHlo.after hostOps0 (W0 m ρ c) (Proc.devRef .tc main_call0_v3) = _
  after_results_simp
  rfl

end Cert.KernelIdeal.Boundary

end
-- ==== Proof.BoundaryKept.lean ====
/-
  The host operations before the first region write none of the three node arrays (features, collision term,
  source term): the later segments find them as launched.
-/
import proofs.«161925_j61005715472412_2_alg».proof.Proof.Gen.KernelIdeal.Frame
import proofs.«161925_j61005715472412_2_alg».proof.Proof.Vocabulary
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Cert.Flow

variable {F : FTy → Type} [FloatOps F]
variable (m : (ℓ : Loc nD τ sig) → Buf (Elt F) ℓ) (ρ : Dev nD → PrngReg)

set_option maxHeartbeats 4000000 in
/-- The features are not written. -/
theorem kept0 (c : Dev nD) : W1 m ρ c (Proc.devRef .tc main_arg0) = (m ((c : Thread nD τ).loc main_arg0)) := by
  show StableHlo.after hostOps0 (W0 m ρ c) (Proc.devRef .tc main_arg0) = _
  after_results_simp

set_option maxHeartbeats 4000000 in
/-- The collision term is not written. -/
theorem kept1 (c : Dev nD) : W1 m ρ c (Proc.devRef .tc main_arg1) = (m ((c : Thread nD τ).loc main_arg1)) := by
  show StableHlo.after hostOps0 (W0 m ρ c) (Proc.devRef .tc main_arg1) = _
  after_results_simp

set_option maxHeartbeats 4000000 in
/-- The source term is not written. -/
theorem kept2 (c : Dev nD) : W1 m ρ c (Proc.devRef .tc main_arg2) = (m ((c : Thread nD τ).loc main_arg2)) := by
  show StableHlo.after hostOps0 (W0 m ρ c) (Proc.devRef .tc main_arg2) = _
  after_results_simp

end Cert.KernelIdeal.Boundary

end
-- ==== Proof.KernelValue.lean ====
/-
  The idealized kernel's result as a function of its arguments.

  Following the buffers through @main's five segments: the first region leaves the packed messages (EdgeBlocks) of
  what the first stretch of host operations prepared (BoundaryRows, BoundaryScales, BoundaryIndex, BoundaryKept); the second stretch cuts the packed array into
  its two halves — the two messages (Layout) —, sums them into the nodes and reshapes the five node arrays to
  50000 × 128; the second region leaves the pointwise step of those (NodeBlocks); the closing reshape brings it back
  to 100000 × 64, where it is the update of the arrays themselves (Layout).  So the result is `spec` of the arguments.
-/
import proofs.«161925_j61005715472412_2_alg».proof.Proof.Gen.KernelIdeal.Frame
import proofs.«161925_j61005715472412_2_alg».proof.Proof.Vocabulary
import proofs.«161925_j61005715472412_2_alg».proof.Proof.Packed
import proofs.«161925_j61005715472412_2_alg».proof.Proof.Layout
import proofs.«161925_j61005715472412_2_alg».proof.Proof.EdgeBlocks
import proofs.«161925_j61005715472412_2_alg».proof.Proof.NodeBlocks
import proofs.«161925_j61005715472412_2_alg».proof.Proof.BoundaryRows
import proofs.«161925_j61005715472412_2_alg».proof.Proof.BoundaryScales
import proofs.«161925_j61005715472412_2_alg».proof.Proof.BoundaryIndex
import proofs.«161925_j61005715472412_2_alg».proof.Proof.BoundaryKept
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem Idealize.ShloMosaic.StableHlo
open Cert.Flow

variable {F : FTy → Type} [FloatOps F]
variable (m : (ℓ : Loc nD τ sig) → Buf (Elt F) ℓ) (ρ : Dev nD → PrngReg)

/-! ## After the first region -/

/-- The first region leaves the packed messages of the gathered rows, the stacked scales and the doubled velocities. -/
theorem packed_out (c : Dev nD) :
    W2 m ρ c (Proc.devRef .tc main_call0_v51)
      = packed 1600000 (rows (clip0 (m ((c : Thread nD τ).loc main_arg0))) (srcIdx (m ((c : Thread nD τ).loc main_arg5)))) (rows (clip0 (m ((c : Thread nD τ).loc main_arg0))) (dstIdx (m ((c : Thread nD τ).loc main_arg5))))
          (scalePair (rate (m ((c : Thread nD τ).loc main_arg3)) (degree (srcIdx (m ((c : Thread nD τ).loc main_arg5)))) (srcIdx (m ((c : Thread nD τ).loc main_arg5))))
            (rate (m ((c : Thread nD τ).loc main_arg3)) (degree (dstIdx (m ((c : Thread nD τ).loc main_arg5)))) (srcIdx (m ((c : Thread nD τ).loc main_arg5)))))
          (xiRow (m ((c : Thread nD τ).loc main_arg4))) := by
  refine (W2_arr m ρ c 4).trans ((EdgeMsg.final (V1 m ρ) c).trans ?_)
  rw [rows_src, rows_dst, scales, velocities]

/-- The region writes none of: the two rows of the edge list, the three node arrays. -/
theorem src_row2 (c : Dev nD) : W2 m ρ c (Proc.devRef .tc main_call0_v1) = srcIdx (m ((c : Thread nD τ).loc main_arg5)) :=
  (W2_of_ne m ρ c main_call0_v1 (by decide)).trans (src_row m ρ c)
theorem dst_row2 (c : Dev nD) : W2 m ρ c (Proc.devRef .tc main_call0_v3) = dstIdx (m ((c : Thread nD τ).loc main_arg5)) :=
  (W2_of_ne m ρ c main_call0_v3 (by decide)).trans (dst_row m ρ c)
theorem kept0' (c : Dev nD) : W2 m ρ c (Proc.devRef .tc main_arg0) = (m ((c : Thread nD τ).loc main_arg0)) :=
  (W2_of_ne m ρ c main_arg0 (by decide)).trans (kept0 m ρ c)
theorem kept1' (c : Dev nD) : W2 m ρ c (Proc.devRef .tc main_arg1) = (m ((c : Thread nD τ).loc main_arg1)) :=
  (W2_of_ne m ρ c main_arg1 (by decide)).trans (kept1 m ρ c)
theorem kept2' (c : Dev nD) : W2 m ρ c (Proc.devRef .tc main_arg2) = (m ((c : Thread nD τ).loc main_arg2)) :=
  (W2_of_ne m ρ c main_arg2 (by decide)).trans (kept2 m ρ c)

/-! ## What the second kernel is handed -/

/-- The features, reshaped. -/
theorem node_f (c : Dev nD) :
    V3 m ρ c main_call0_v60 = shapeCast S50000x128 (m ((c : Thread nD τ).loc main_arg0)) Facts₀.shapeCasts_S100000x64_S50000x128 := by
  show StableHlo.after hostOps1 (W2 m ρ c) (Proc.devRef .tc main_call0_v60) = _
  after_results_simp
  rw [kept0']
  rfl

/-- The inflow, reshaped: the first halves of the packed rows summed at the destinations. -/
theorem node_in (c : Dev nD) :
    V3 m ρ c main_call0_v61
      = shapeCast S50000x128 (inflow (m ((c : Thread nD τ).loc main_arg0)) (m ((c : Thread nD τ).loc main_arg3)) (m ((c : Thread nD τ).loc main_arg4)) (m ((c : Thread nD τ).loc main_arg5))) Facts₀.shapeCasts_S100000x64_S50000x128 := by
  show StableHlo.after hostOps1 (W2 m ρ c) (Proc.devRef .tc main_call0_v61) = _
  after_results_simp
  simp only [TRef.toBuf, TRef.ofBuf, cast_eq]
  rw [dst_row2, packed_out, packed_lo]
  rfl

/-- The outflow, reshaped: the second halves of the packed rows summed at the sources. -/
theorem node_out (c : Dev nD) :
    V3 m ρ c main_call0_v62
      = shapeCast S50000x128 (outflow (m ((c : Thread nD τ).loc main_arg0)) (m ((c : Thread nD τ).loc main_arg3)) (m ((c : Thread nD τ).loc main_arg4)) (m ((c : Thread nD τ).loc main_arg5))) Facts₀.shapeCasts_S100000x64_S50000x128 := by
  show StableHlo.after hostOps1 (W2 m ρ c) (Proc.devRef .tc main_call0_v62) = _
  after_results_simp
  simp only [TRef.toBuf, TRef.ofBuf, cast_eq]
  rw [src_row2, packed_out, packed_hi]
  rfl

/-- The collision term, reshaped. -/
theorem node_coll (c : Dev nD) :
    V3 m ρ c main_call0_v63 = shapeCast S50000x128 (m ((c : Thread nD τ).loc main_arg1)) Facts₀.shapeCasts_S100000x64_S50000x128 := by
  show StableHlo.after hostOps1 (W2 m ρ c) (Proc.devRef .tc main_call0_v63) = _
  after_results_simp
  rw [kept1']
  rfl

/-- The source term, reshaped. -/
theorem node_src (c : Dev nD) :
    V3 m ρ c main_call0_v64 = shapeCast S50000x128 (m ((c : Thread nD τ).loc main_arg2)) Facts₀.shapeCasts_S100000x64_S50000x128 := by
  show StableHlo.after hostOps1 (W2 m ρ c) (Proc.devRef .tc main_call0_v64) = _
  after_results_simp
  rw [kept2']
  rfl

/-! ## The result -/

/-- The result buffer after the last segment is `spec` of the six arguments. -/
theorem result (c : Dev nD) :
    W5 m ρ c (Proc.devRef .tc main_v0)
      = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v0) = _
  after_results_simp
  rw [show W4 m ρ c (Proc.devRef .tc main_call0_v65) = _ from (W4_arr m ρ c 5).trans (NodeStep.final (V3 m ρ) c)]
  rw [node_f, node_in, node_out, node_coll, node_src]
  exact step_reshaped _ _ _ _ _

end Cert.KernelIdeal.Boundary

end
-- ==== Proof.lean ====
/-
  One step of a transport equation on a graph: the kernel against its reference.

  Both programs take node features `f` (100000 × 64), a collision and a source term, 1600000 edge weights, 64
  velocities and the edge list, and return
      max(0, max(0, f) − 0.1 · (((outflow − inflow) − collision) − source)),
  where inflow and outflow are sums over the edges of `(w / degree) · xi · (f[dst] − f[src])` (Vocabulary.lean: `spec`).
  The kernel computes the same operations in the same order; what differs is only where the numbers sit: the two
  per-edge messages are produced side by side in one 1600000 × 128 array by a first kernel over 400 blocks of edges,
  and the final update runs in a second kernel over 25 blocks of the node arrays reshaped to 50000 × 128.  No
  algebraic law is used and no finiteness: at every instance of the float operations the two results are the same
  term (KernelValue.lean: `result`; the reference's term is `spec` as printed).

  The frames of both kernels' programs are the generated ones; the reference's frame is its generated run with the
  result dropped; the idealization rewrote nothing, so `preserves` is `True`.
-/
import proofs.«161925_j61005715472412_2_alg».proof.Defs
import proofs.«161925_j61005715472412_2_alg».proof.Proof.Gen.Kernel
import proofs.«161925_j61005715472412_2_alg».proof.Proof.Gen.Kernel.Skeleton
import proofs.«161925_j61005715472412_2_alg».proof.Proof.Gen.Kernel.Launch
import proofs.«161925_j61005715472412_2_alg».proof.Proof.Gen.Kernel.Points
import proofs.«161925_j61005715472412_2_alg».proof.Proof.Gen.Kernel.Frame
import proofs.«161925_j61005715472412_2_alg».proof.Proof.Gen.KernelIdeal
import proofs.«161925_j61005715472412_2_alg».proof.Proof.Gen.KernelIdeal.Skeleton
import proofs.«161925_j61005715472412_2_alg».proof.Proof.Gen.KernelIdeal.Launch
import proofs.«161925_j61005715472412_2_alg».proof.Proof.Gen.KernelIdeal.Points
import proofs.«161925_j61005715472412_2_alg».proof.Proof.Gen.KernelIdeal.Frame
import proofs.«161925_j61005715472412_2_alg».proof.Proof.Gen.ReferenceIdeal
import proofs.«161925_j61005715472412_2_alg».proof.Proof.Gen.ReferenceIdeal.Run
import proofs.«161925_j61005715472412_2_alg».proof.Proof.Gen.Pre_finite_inputs
import proofs.«161925_j61005715472412_2_alg».proof.Proof.Vocabulary
import proofs.«161925_j61005715472412_2_alg».proof.Proof.KernelRun
import proofs.«161925_j61005715472412_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result term is `spec` of its arguments, as printed. -/
theorem reference_result {F : FTy → Type} [FloatOps F]
    (m : (ℓ : Loc Cert.ReferenceIdeal.nD Cert.ReferenceIdeal.τ Cert.ReferenceIdeal.sig) → Buf (Elt F) ℓ) (c : Dev Cert.ReferenceIdeal.nD) :
    Cert.ReferenceIdeal.Value.res_main_v71 m c
      = Cert.Flow.spec (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := rfl

/-- From memories that agree on the six arguments both idealized programs end with `spec` of them. -/
theorem algebraic : Cert.algebraic_KernelIdeal_ReferenceIdeal := by
  intro m ρ m' ρ' _ hagree
  refine ⟨fun c => Cert.Flow.spec (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundary.result m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    rw [reference_result, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
